-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S1x128 : Shape := ⟨2, ![1, 128]⟩
abbrev S5000x128 : Shape := ⟨2, ![5000, 128]⟩

abbrev nBuf : Space → Nat
  | .hbm => 42
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S128x128, .f32⟩
  | .hbm, ⟨33, _⟩ => ⟨S128x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S128x128, .f32⟩
  | .hbm, ⟨40, _⟩ => ⟨S128x128, .f32⟩
  | .hbm, ⟨41, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  @main is four segments: the host operations before the first region, the first region, the host operations between
  the regions, the second region.  At every boundary the contents of each buffer are known: a stretch of host
  operations rewrites the buffers its operations write, and a region leaves in each of its arrays what its write-backs
  leave and every other buffer as it found it.  So every weakly fair execution terminates, the arguments end as
  launched, and the result buffer ends holding the fold's value at that buffer — the second region's output array
  after its ten write-backs.
-/
import proofs.«115657_j58171037057096_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every weakly fair execution of @main terminates without a fault, the result buffer holds the last
    boundary's contents at that buffer, and the arguments are as launched. -/
theorem run_out : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunOut

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibMlp.lean ====
/-
  A two-layer perceptron applied to every row of an array of extended reals, and the chains of vector operations
  that compute it.

  One row "z" of width d goes through the network as

      z  ↦  z · W1            (a row of width h: entry c is the sum over l of z l * W1 (l, c))
         ↦  max (· + b1, 0)   (the one-row array b1 added entry by entry, then the maximum with zero)
         ↦  · · W2            (a row of width a)
         ↦  · + b2            (the one-row array b2 added entry by entry).

  "net x W1 b1 W2 b2" applies this to every row of the n × d array "x".  Because each row of the result depends on
  the same row of "x" only, a band of rows of the result is the result of the band ("net_band"): this is what lets a
  computation carried out on bands of 8192 rows be compared with one carried out on bands of 1024 rows, both being
  bands of the one array "net" of all 65536 rows.

  A matrix unit's product onto the zero accumulator, contracting the left operand's columns against the right
  operand's rows, is "every row times the matrix" ("matmul_zero_lin"); adding a broadcast one-row array and taking
  the maximum with a broadcast zero is "hidden" on every row ("hidden_chain"); adding a broadcast one-row array is
  "shift" on every row ("shift_chain").  None of this uses finiteness: both sides are the same sums of the same
  products, so the statements hold for all extended reals.
-/
import Idealize.ShloMosaic.Lib.ValueIdx
import Idealize.ShloMosaic.Lib.ValueLayout
import Idealize.ShloMosaic.PureOps.Ideal.Laws
import proofs.«115657_j58171037057096_1_alg».proof.Proof.LibRowWise
import proofs.«115657_j58171037057096_1_alg».proof.Proof.LibMatProd
import proofs.«115657_j58171037057096_1_alg».proof.Proof.LibDot2

noncomputable section

open scoped BigOperators

namespace Mlp

open Idealize.ShloMosaic Idealize.ShloMosaic.ValueIdx GcnSpec

/-! ## The network on one row and on every row -/

/-- Add the one-row array "b" to a row, then take the maximum with zero. -/
def hidden {k : ℕ} (b : Arr 1 k) (z : Fin k → EReal) : Fin k → EReal :=
  fun c => max (z c + b (ix2 (0 : Fin 1) c)) 0

/-- Add the one-row array "b" to a row. -/
def shift {k : ℕ} (b : Arr 1 k) (z : Fin k → EReal) : Fin k → EReal :=
  fun c => z c + b (ix2 (0 : Fin 1) c)

/-- One row through the two layers. -/
def netRow {d h a : ℕ} (w1 : Arr d h) (b1 : Arr 1 h) (w2 : Arr h a) (b2 : Arr 1 a) (z : Fin d → EReal) :
    Fin a → EReal :=
  shift b2 (linRow w2 (hidden b1 (linRow w1 z)))

/-- Every row through the two layers. -/
def net {n d h a : ℕ} (x : Arr n d) (w1 : Arr d h) (b1 : Arr 1 h) (w2 : Arr h a) (b2 : Arr 1 a) : Arr n a :=
  rowMap (netRow w1 b1 w2 b2) x

/-- Row r of a row-wise layer's result is the row function of row r. -/
theorem row_rowMap {n k q : ℕ} (f : (Fin k → EReal) → Fin q → EReal) (x : Arr n k) (r : Fin n) :
    row (rowMap f x) r = f (row x r) := rfl

/-- Two row-wise layers in a row are one row-wise layer. -/
theorem rowMap_rowMap {n k q p : ℕ} (f : (Fin q → EReal) → Fin p → EReal) (g : (Fin k → EReal) → Fin q → EReal)
    (x : Arr n k) : rowMap f (rowMap g x) = rowMap (fun z => f (g z)) x := rfl

/-- The four layers one after the other are the network. -/
theorem layers_eq_net {n d h a : ℕ} (x : Arr n d) (w1 : Arr d h) (b1 : Arr 1 h) (w2 : Arr h a) (b2 : Arr 1 a) :
    rowMap (shift b2) (rowMap (linRow w2) (rowMap (hidden b1) (rowMap (linRow w1) x))) = net x w1 b1 w2 b2 := rfl

/-- A band of rows of the network's result is the network's result on the band.  "e₁" and "e₂" send an index of the
    band to the index of the whole array "o" rows further down, in the same column. -/
theorem net_band {N n d h a : ℕ} (X : Arr N d) (w1 : Arr d h) (b1 : Arr 1 h) (w2 : Arr h a) (b2 : Arr 1 a) (o : ℕ)
    (e₁ : (⟨2, ![n, d]⟩ : Shape).Idx → (⟨2, ![N, d]⟩ : Shape).Idx)
    (e₂ : (⟨2, ![n, a]⟩ : Shape).Idx → (⟨2, ![N, a]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, a]⟩ : Shape).Idx) :
    net (fun y => X (e₁ y)) w1 b1 w2 b2 j = net X w1 b1 w2 b2 (e₂ j) :=
  (rowMap_band (netRow w1 b1 w2 b2) X o e₁ e₂ h10 h11 h20 h21 j).symm

/-! ## The operation chains -/

/-- A matrix unit's product of rank-2 operands onto the zero accumulator, its dimension numbers those of the plain
    product (left columns against right rows, no batch axes), is every row of the left operand times the right one. -/
theorem matmul_zero_lin {n k q : ℕ} {φ₁ φ₂ : FTy}
    (dd : DotDims (⟨2, ![n, k]⟩ : Shape) (⟨2, ![k, q]⟩ : Shape) (⟨2, ![n, q]⟩ : Shape)) (prec : Option ContractPrecision)
    (h1 : dd.lhsContracting = [1]) (h2 : dd.rhsContracting = [0]) (h3 : dd.lhsNonContracting = [0])
    (h4 : dd.rhsNonContracting = [1]) (h5 : dd.lhsBatch = []) (h6 : dd.rhsBatch = [])
    (lhs : FVec Ideal (⟨2, ![n, k]⟩ : Shape) φ₁) (rhs : FVec Ideal (⟨2, ![k, q]⟩ : Shape) φ₂) :
    matmul dd prec lhs rhs (constant (F := Ideal) (⟨2, ![n, q]⟩ : Shape) .f32 0x00000000#32)
      = rowMap (linRow rhs) lhs := by
  have hr : dd.contr.rank = 1 := Dot2.rank_contr dd h1
  have h0 : 0 < dd.contr.rank := by omega
  exact eq_rowMap _ _ _ fun r c =>
    (MatProd.matmul_zero_entry dd prec hr (Dot2.size_contr dd h1 h0) (Dot2.lhs0 dd h3 h5) (Dot2.lhs1 dd h1 h0)
      (Dot2.rhs0 dd h2 h0) (Dot2.rhs1 dd h3 h4 h5 h6) lhs rhs r c).trans rfl

/-- A one-row array broadcast over the rows and added, then the maximum with a splat scalar that is zero. -/
theorem hidden_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩)
    (zero : Ideal φ) (hz : (zero : EReal) = 0) :
    maximumf (addf z (broadcastTo ⟨2, ![n, k]⟩ b hb)) (broadcast ⟨2, ![n, k]⟩ zero) = rowMap (hidden b) z := by
  refine eq_rowMap _ _ _ fun r c => ?_
  rw [maximumf_apply, addf_apply, broadcast_apply, broadcastTo_1b_ab_apply, hz]
  rfl

/-- A one-row array broadcast over the rows and added. -/
theorem shift_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩) :
    addf z (broadcastTo ⟨2, ![n, k]⟩ b hb) = rowMap (shift b) z := by
  refine eq_rowMap _ _ _ fun r c => ?_
  rw [addf_apply, broadcastTo_1b_ab_apply]
  rfl

/-- The bf16 zero word denotes zero. -/
theorem zero_bf16 : (FloatOps.ofBits (F := Ideal) .bf16 0x0000#16 : EReal) = 0 := by
  rw [Ideal.ofBits_def]; simp [Ideal.ofBits, Ideal.ieee]

/-- The f32 zero word denotes zero. -/
theorem zero_f32 : (FloatOps.ofBits (F := Ideal) .f32 0x00000000#32 : EReal) = 0 := by
  rw [Ideal.ofBits_def]; exact Ideal.ofBits_zero_f32

end Mlp

end
-- ==== Proof.LibJoinedProd.lean ====
/-
  A row of a + b numbers times a matrix with a + b rows, when the row is two shorter rows laid end to end.

  A sum over c = a + b positions is the sum over the first a positions plus the sum over the last b (`sum_split`).  So if
  row p of an n × c array Z is row p of an n × a array X followed by row p of an n × b array Y, entry (p, q) of Z · W is
  the sum over the first a rows of W against X's row plus the sum over the last b rows of W against Y's row
  (`entry_join`).  Only the commutative-monoid structure of the extended reals' sum is used: nothing has to be finite.
-/
import proofs.«115657_j58171037057096_1_alg».proof.Proof.LibMatProd

noncomputable section

open scoped BigOperators

namespace MatProd

open Idealize.ShloMosaic Idealize.ShloMosaic.ValueIdx

/-- A sum over a + b positions: the first a, then the last b. -/
theorem sum_split {M : Type*} [AddCommMonoid M] {a b c : ℕ} (h : c = a + b) (f : Fin c → M) :
    ∑ l : Fin c, f l
      = ∑ k : Fin a, f ⟨k.val, by have := k.isLt; omega⟩ + ∑ k : Fin b, f ⟨a + k.val, by have := k.isLt; omega⟩ := by
  subst h
  rw [Fin.sum_univ_add]
  rfl

/-- Entry (p, q) of Z · W when row p of Z is row p of X followed by row p of Y. -/
theorem entry_join {n a b c m : ℕ} (h : c = a + b)
    (Z : (⟨2, ![n, c]⟩ : Shape).Idx → EReal) (W : (⟨2, ![c, m]⟩ : Shape).Idx → EReal)
    (X : (⟨2, ![n, a]⟩ : Shape).Idx → EReal) (Y : (⟨2, ![n, b]⟩ : Shape).Idx → EReal) (p : Fin n) (q : Fin m)
    (hX : ∀ l : Fin a, Z (ix2 p ⟨l.val, by have := l.isLt; omega⟩) = X (ix2 p l))
    (hY : ∀ l : Fin b, Z (ix2 p ⟨a + l.val, by have := l.isLt; omega⟩) = Y (ix2 p l)) :
    entry Z W p q
      = ∑ l : Fin a, X (ix2 p l) * W (ix2 ⟨l.val, by have := l.isLt; omega⟩ q)
        + ∑ l : Fin b, Y (ix2 p l) * W (ix2 ⟨a + l.val, by have := l.isLt; omega⟩ q) := by
  unfold entry
  rw [sum_split h]
  refine congrArg₂ (· + ·) (Finset.sum_congr rfl fun l _ => ?_) (Finset.sum_congr rfl fun l _ => ?_)
  · rw [hX l]
  · rw [hY l]

end MatProd

end
-- ==== Proof.LibPairMlp.lean ====
/-
  A two-layer perceptron whose input row is TWO rows laid end to end, applied to every row of a pair of arrays.

  For rows "u" and "v" of width d, first-layer matrices "wa" and "wb" (d × h), a bias "b1" of width h, a second-layer
  matrix "w2" (h × a) and a bias "b2" of width a, the network sends (u, v) to

      hid  c = max ((sum over l of u l * wa (l, c)  +  sum over l of v l * wb (l, c))  +  b1 c, 0)
      out  q = (sum over k of hid k * w2 (k, q))  +  b2 q.

  "pairArr x y ..." applies this to row r of "x" and row r of "y", for every r.  Row r of the result depends on row r of
  the two inputs only, so a band of rows of the result is the result of the bands ("pairArr_band").

  Two chains of array operations compute it.  One multiplies each input by its own matrix on a matrix unit (onto the zero
  accumulator) and adds the two products ("split_chain").  The other joins the two inputs side by side into one array
  of width d + d and multiplies by ONE matrix with d + d rows, whose upper d rows are "wa" and whose lower d rows are "wb"
  ("joined_chain"): a sum over d + d positions is the sum over the first d plus the sum over the last d, so the two agree.
  Nothing here needs finiteness: only that the sum of extended reals is commutative and associative.
-/
import Idealize.ShloMosaic.Lib.ValueIdx
import Idealize.ShloMosaic.Lib.ValueLayout
import Idealize.ShloMosaic.Lib.Pipeline.Value
import Idealize.ShloMosaic.PureOps.Ideal.Laws
import proofs.«115657_j58171037057096_1_alg».proof.Proof.LibRowWise
import proofs.«115657_j58171037057096_1_alg».proof.Proof.LibMatProd
import proofs.«115657_j58171037057096_1_alg».proof.Proof.LibDot2
import proofs.«115657_j58171037057096_1_alg».proof.Proof.LibMlp
import proofs.«115657_j58171037057096_1_alg».proof.Proof.LibJoinedProd

noncomputable section

open scoped BigOperators

namespace PairMlp

open Idealize.ShloMosaic Idealize.ShloMosaic.ValueIdx GcnSpec

/-! ## The network on a pair of rows and on every pair of rows -/

/-- A rank-1 array as a function of its one coordinate. -/
def vec {k : ℕ} (b : (⟨1, ![k]⟩ : Shape).Idx → EReal) : Fin k → EReal := fun c => b (ix1 c)

/-- The hidden row: each input row times its own matrix, the two added, the bias added, the maximum with zero. -/
def hid {d h : ℕ} (wa wb : Arr d h) (b : Fin h → EReal) (u v : Fin d → EReal) : Fin h → EReal :=
  fun c => max ((linRow wa u c + linRow wb v c) + b c) 0

/-- The output row: the hidden row times the second matrix, the second bias added. -/
def out {h a : ℕ} (w : Arr h a) (b : Fin a → EReal) (z : Fin h → EReal) : Fin a → EReal :=
  fun q => linRow w z q + b q

/-- A pair of rows through the two layers. -/
def pairRow {d h a : ℕ} (wa wb : Arr d h) (b1 : Fin h → EReal) (w2 : Arr h a) (b2 : Fin a → EReal)
    (u v : Fin d → EReal) : Fin a → EReal :=
  out w2 b2 (hid wa wb b1 u v)

/-- Every pair of rows through the two layers. -/
def pairArr {n d h a : ℕ} (x y : Arr n d) (wa wb : Arr d h) (b1 : Fin h → EReal) (w2 : Arr h a) (b2 : Fin a → EReal) :
    Arr n a :=
  fun i => pairRow wa wb b1 w2 b2 (row x ⟨(i 0).val, idx2_lt0 i⟩) (row y ⟨(i 0).val, idx2_lt0 i⟩) ⟨(i 1).val, idx2_lt1 i⟩

theorem pairArr_ix2 {n d h a : ℕ} (x y : Arr n d) (wa wb : Arr d h) (b1 : Fin h → EReal) (w2 : Arr h a)
    (b2 : Fin a → EReal) (r : Fin n) (c : Fin a) :
    pairArr x y wa wb b1 w2 b2 (ix2 r c) = pairRow wa wb b1 w2 b2 (row x r) (row y r) c := rfl

/-- To show an array is "pairArr" it is enough to read it at every pair of coordinates. -/
theorem eq_pairArr {n d h a : ℕ} (x y : Arr n d) (wa wb : Arr d h) (b1 : Fin h → EReal) (w2 : Arr h a)
    (b2 : Fin a → EReal) (z : Arr n a)
    (hz : ∀ (r : Fin n) (c : Fin a), z (ix2 r c) = pairRow wa wb b1 w2 b2 (row x r) (row y r) c) :
    z = pairArr x y wa wb b1 w2 b2 := by
  funext i
  obtain ⟨r, c, rfl⟩ : ∃ (r : Fin n) (c : Fin a), i = ix2 r c := ⟨i 0, i 1, eq_ix2 i⟩
  rw [hz, pairArr_ix2]

/-- A band of rows: if row (j 0) of the short arrays is row (i 0) of the tall ones and the columns agree, the short
    arrays' result at j is the tall arrays' result at i. -/
theorem pairArr_band {N n d h a : ℕ} (X Y : Arr N d) (x y : Arr n d) (wa wb : Arr d h) (b1 : Fin h → EReal)
    (w2 : Arr h a) (b2 : Fin a → EReal) (j : (⟨2, ![n, a]⟩ : Shape).Idx) (i : (⟨2, ![N, a]⟩ : Shape).Idx)
    (hx : ∀ l : Fin d, x (ix2 ⟨(j 0).val, idx2_lt0 j⟩ l) = X (ix2 ⟨(i 0).val, idx2_lt0 i⟩ l))
    (hy : ∀ l : Fin d, y (ix2 ⟨(j 0).val, idx2_lt0 j⟩ l) = Y (ix2 ⟨(i 0).val, idx2_lt0 i⟩ l))
    (h1 : (j 1).val = (i 1).val) :
    pairArr x y wa wb b1 w2 b2 j = pairArr X Y wa wb b1 w2 b2 i := by
  unfold pairArr
  have ex : row x ⟨(j 0).val, idx2_lt0 j⟩ = row X ⟨(i 0).val, idx2_lt0 i⟩ := funext hx
  have ey : row y ⟨(j 0).val, idx2_lt0 j⟩ = row Y ⟨(i 0).val, idx2_lt0 i⟩ := funext hy
  have ec : (⟨(j 1).val, idx2_lt1 j⟩ : Fin a) = ⟨(i 1).val, idx2_lt1 i⟩ := Fin.ext h1
  rw [ex, ey, ec]

/-! ## The upper and the lower half of a matrix with d + d rows -/

/-- Rows 0 … d − 1 of a matrix with c = d + d rows. -/
def top {d c h : ℕ} (hc : c = d + d) (w : Arr c h) : Arr d h :=
  fun i => w (ix2 ⟨(i 0).val, by have := idx2_lt0 i; omega⟩ ⟨(i 1).val, idx2_lt1 i⟩)

/-- Rows d … d + d − 1 of a matrix with c = d + d rows. -/
def bot {d c h : ℕ} (hc : c = d + d) (w : Arr c h) : Arr d h :=
  fun i => w (ix2 ⟨d + (i 0).val, by have := idx2_lt0 i; omega⟩ ⟨(i 1).val, idx2_lt1 i⟩)

/-- The slice of the upper d rows is "top". -/
theorem slice_top {d c h : ℕ} (hc : c = d + d) (w : Arr c h)
    (hs : (⟨2, ![c, h]⟩ : Shape).Slices ![0, 0] ⟨2, ![d, h]⟩) :
    extractStridedSlice ⟨2, ![d, h]⟩ ![0, 0] w hs = top hc w := by
  funext i
  obtain ⟨r, q, rfl⟩ : ∃ (r : Fin d) (q : Fin h), i = ix2 r q := ⟨i 0, i 1, eq_ix2 i⟩
  exact slice2_axis0_apply 0 w hs r q ⟨r.val, by have := r.isLt; omega⟩ (Nat.zero_add _).symm

/-- The slice of the lower d rows is "bot". -/
theorem slice_bot {d c h : ℕ} (hc : c = d + d) (w : Arr c h)
    (hs : (⟨2, ![c, h]⟩ : Shape).Slices ![d, 0] ⟨2, ![d, h]⟩) :
    extractStridedSlice ⟨2, ![d, h]⟩ ![d, 0] w hs = bot hc w := by
  funext i
  obtain ⟨r, q, rfl⟩ : ∃ (r : Fin d) (q : Fin h), i = ix2 r q := ⟨i 0, i 1, eq_ix2 i⟩
  exact slice2_axis0_apply d w hs r q ⟨d + r.val, by have := r.isLt; omega⟩ rfl

end PairMlp

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«115657_j58171037057096_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.LibPairChains.lean ====
/-
  The two chains of array operations that compute the two-input perceptron "PairMlp.pairArr".

  "split_chain": each input array is multiplied by its own first-layer matrix on a matrix unit (onto the zero
  accumulator, the operands narrowed on the way in, which changes nothing on extended reals), the two products are
  added, a bias row is broadcast over the rows and added, the maximum with a splat zero is taken, the result is
  multiplied by the second-layer matrix and a second bias row is added.

  "joined_chain": the two input arrays are joined side by side, the joined array is multiplied by ONE first-layer matrix
  with d + d rows, and the rest is the same with the host's spellings (a bias broadcast in two steps, the zero a
  broadcast rank-0 constant).  The sum over the d + d joined positions is the sum over the first d, which read the
  first input against the upper rows of the matrix, plus the sum over the last d, which read the second input against
  the lower rows.
-/
import proofs.«115657_j58171037057096_1_alg».proof.Proof.LibPairMlp
import proofs.«115657_j58171037057096_1_alg».proof.Proof.LibProdRows
import proofs.«115657_j58171037057096_1_alg».proof.Proof.LibConcatCols

noncomputable section

open scoped BigOperators

namespace PairMlp

open Idealize.ShloMosaic Idealize.ShloMosaic.ValueIdx GcnSpec

/-! ## Small reads -/

/-- A bias vector made a one-row array and broadcast over the rows, the host's way: at (r, c) it is the vector at c. -/
theorem bias_rows {n k : ℕ} (b : (⟨1, ![k]⟩ : Shape).Idx → EReal)
    (hv : (⟨1, ![k]⟩ : Shape).BroadcastsInDim ⟨2, ![1, k]⟩ ![1])
    (hm : (⟨2, ![1, k]⟩ : Shape).BroadcastsInDim ⟨2, ![n, k]⟩ ![0, 1]) (r : Fin n) (c : Fin k) :
    broadcastInDim ⟨2, ![n, k]⟩ ![0, 1] hm (broadcastInDim ⟨2, ![1, k]⟩ ![1] hv b) (ix2 r c) = b (ix1 c) := by
  rw [broadcastInDim_apply ![0, 1] hm _ (ix2 r c) (ix2 (0 : Fin 1) c) (fun ax => by
    match ax with
    | ⟨0, _⟩ => rfl
    | ⟨1, _⟩ =>
      show c.val = if k = 1 then 0 else c.val
      split
      · have := c.isLt; omega
      · rfl)]
  exact broadcastInDim_apply ![1] hv b (ix2 (0 : Fin 1) c) (ix1 c) (fun ax => by
    match ax with
    | ⟨0, _⟩ =>
      show c.val = if k = 1 then 0 else c.val
      split
      · have := c.isLt; omega
      · rfl)

/-- A rank-0 array broadcast to every position reads its one entry. -/
theorem scalar_rows {n k : ℕ} (z : (⟨0, ![]⟩ : Shape).Idx → EReal)
    (hs : (⟨0, ![]⟩ : Shape).BroadcastsInDim ⟨2, ![n, k]⟩ ![]) (i : (⟨2, ![n, k]⟩ : Shape).Idx) :
    broadcastInDim ⟨2, ![n, k]⟩ ![] hs z i = z ix0 :=
  broadcastInDim_apply ![] hs z i ix0 (fun ax => ax.elim0)

/-- The plain product's dimension numbers give the record the facts "MatProd.Plain" asks for. -/
theorem plain_of_lists {n k q : ℕ} (dd : DotDims (⟨2, ![n, k]⟩ : Shape) (⟨2, ![k, q]⟩ : Shape) (⟨2, ![n, q]⟩ : Shape))
    (h1 : dd.lhsContracting = [1]) (h2 : dd.rhsContracting = [0]) (h3 : dd.lhsNonContracting = [0])
    (h4 : dd.rhsNonContracting = [1]) (h5 : dd.lhsBatch = []) (h6 : dd.rhsBatch = []) : MatProd.Plain dd :=
  have hr : dd.contr.rank = 1 := Dot2.rank_contr dd h1
  have h0 : 0 < dd.contr.rank := by omega
  ⟨hr, Dot2.size_contr dd h1 h0, Dot2.lhs0 dd h3 h5, Dot2.lhs1 dd h1 h0, Dot2.rhs0 dd h2 h0, Dot2.rhs1 dd h3 h4 h5 h6⟩

/-! ## The chain on two matrix units -/

theorem split_chain {n d h a : ℕ}
    (dd1 : DotDims (⟨2, ![n, d]⟩ : Shape) (⟨2, ![d, h]⟩ : Shape) (⟨2, ![n, h]⟩ : Shape))
    (dd2 : DotDims (⟨2, ![n, h]⟩ : Shape) (⟨2, ![h, a]⟩ : Shape) (⟨2, ![n, a]⟩ : Shape))
    (p1 : dd1.lhsContracting = [1]) (p2 : dd1.rhsContracting = [0]) (p3 : dd1.lhsNonContracting = [0])
    (p4 : dd1.rhsNonContracting = [1]) (p5 : dd1.lhsBatch = []) (p6 : dd1.rhsBatch = [])
    (q1 : dd2.lhsContracting = [1]) (q2 : dd2.rhsContracting = [0]) (q3 : dd2.lhsNonContracting = [0])
    (q4 : dd2.rhsNonContracting = [1]) (q5 : dd2.lhsBatch = []) (q6 : dd2.rhsBatch = [])
    (hc1 : (⟨1, ![h]⟩ : Shape).ShapeCasts ⟨2, ![1, h]⟩) (hb1 : (⟨2, ![1, h]⟩ : Shape).Broadcasts ⟨2, ![n, h]⟩)
    (hc2 : (⟨1, ![a]⟩ : Shape).ShapeCasts ⟨2, ![1, a]⟩) (hb2 : (⟨2, ![1, a]⟩ : Shape).Broadcasts ⟨2, ![n, a]⟩)
    (ht : FTy.bf16.bits < FTy.f32.bits)
    (x y : FVec Ideal (⟨2, ![n, d]⟩ : Shape) .f32) (wa wb : FVec Ideal (⟨2, ![d, h]⟩ : Shape) .f32)
    (b1 : FVec Ideal (⟨1, ![h]⟩ : Shape) .f32) (w2 : FVec Ideal (⟨2, ![h, a]⟩ : Shape) .f32)
    (b2 : FVec Ideal (⟨1, ![a]⟩ : Shape) .f32) (zero : Ideal .f32) (hz : (zero : EReal) = 0) :
    addf (matmul dd2 none
        (truncf .bf16 (maximumf (addf (addf
            (matmul dd1 none (truncf .bf16 x ht) (truncf .bf16 wa ht) (constant (F := Ideal) (⟨2, ![n, h]⟩ : Shape) .f32 0x00000000#32))
            (matmul dd1 none (truncf .bf16 y ht) (truncf .bf16 wb ht) (constant (F := Ideal) (⟨2, ![n, h]⟩ : Shape) .f32 0x00000000#32)))
          (broadcastTo ⟨2, ![n, h]⟩ (shapeCast ⟨2, ![1, h]⟩ b1 hc1) hb1)) (broadcast ⟨2, ![n, h]⟩ zero)) ht)
        (truncf .bf16 w2 ht) (constant (F := Ideal) (⟨2, ![n, a]⟩ : Shape) .f32 0x00000000#32))
      (broadcastTo ⟨2, ![n, a]⟩ (shapeCast ⟨2, ![1, a]⟩ b2 hc2) hb2)
    = pairArr x y wa wb (vec b1) w2 (vec b2) := by
  refine eq_pairArr _ _ _ _ _ _ _ _ fun r c => ?_
  rw [addf_apply, Mlp.matmul_zero_lin dd2 none q1 q2 q3 q4 q5 q6, rowMap_ix2, broadcastTo_1b_ab_apply,
    shapeCast_a_1a_apply]
  refine congrArg (· + b2 (ix1 c)) (congrArg (fun z => linRow w2 z c) (funext fun l => ?_))
  show maximumf (F := Ideal) _ _ (ix2 r l) = _
  rw [maximumf_apply, addf_apply, addf_apply, Mlp.matmul_zero_lin dd1 none p1 p2 p3 p4 p5 p6,
    Mlp.matmul_zero_lin dd1 none p1 p2 p3 p4 p5 p6, rowMap_ix2, rowMap_ix2, broadcast_apply, broadcastTo_1b_ab_apply,
    shapeCast_a_1a_apply, hz]
  rfl

/-! ## The chain on the joined array -/

theorem joined_chain {n d c h a : ℕ} (hcd : c = d + d)
    (ddc : DotDims (⟨2, ![n, c]⟩ : Shape) (⟨2, ![c, h]⟩ : Shape) (⟨2, ![n, h]⟩ : Shape))
    (dd2 : DotDims (⟨2, ![n, h]⟩ : Shape) (⟨2, ![h, a]⟩ : Shape) (⟨2, ![n, a]⟩ : Shape))
    (p1 : ddc.lhsContracting = [1]) (p2 : ddc.rhsContracting = [0]) (p3 : ddc.lhsNonContracting = [0])
    (p4 : ddc.rhsNonContracting = [1]) (p5 : ddc.lhsBatch = []) (p6 : ddc.rhsBatch = [])
    (q1 : dd2.lhsContracting = [1]) (q2 : dd2.rhsContracting = [0]) (q3 : dd2.lhsNonContracting = [0])
    (q4 : dd2.rhsNonContracting = [1]) (q5 : dd2.lhsBatch = []) (q6 : dd2.rhsBatch = [])
    (hcat : Shape.Concatenates [(⟨2, ![n, d]⟩ : Shape), ⟨2, ![n, d]⟩] ⟨2, ![n, c]⟩ 1)
    (hv1 : (⟨1, ![h]⟩ : Shape).BroadcastsInDim ⟨2, ![1, h]⟩ ![1])
    (hm1 : (⟨2, ![1, h]⟩ : Shape).BroadcastsInDim ⟨2, ![n, h]⟩ ![0, 1])
    (hs : (⟨0, ![]⟩ : Shape).BroadcastsInDim ⟨2, ![n, h]⟩ ![])
    (hv2 : (⟨1, ![a]⟩ : Shape).BroadcastsInDim ⟨2, ![1, a]⟩ ![1])
    (hm2 : (⟨2, ![1, a]⟩ : Shape).BroadcastsInDim ⟨2, ![n, a]⟩ ![0, 1])
    (x y : FVec Ideal (⟨2, ![n, d]⟩ : Shape) .f32) (w : FVec Ideal (⟨2, ![c, h]⟩ : Shape) .f32)
    (b1 : FVec Ideal (⟨1, ![h]⟩ : Shape) .f32) (w2 : FVec Ideal (⟨2, ![h, a]⟩ : Shape) .f32)
    (b2 : FVec Ideal (⟨1, ![a]⟩ : Shape) .f32) :
    addf (Host.dotGeneral dd2 none
        (maximumf (addf
            (Host.dotGeneral ddc none
              (concatenate ⟨2, ![n, c]⟩ 1 [⟨⟨2, ![n, d]⟩, x⟩, ⟨⟨2, ![n, d]⟩, y⟩] hcat) w)
            (broadcastInDim ⟨2, ![n, h]⟩ ![0, 1] hm1 (broadcastInDim ⟨2, ![1, h]⟩ ![1] hv1 b1)))
          (broadcastInDim ⟨2, ![n, h]⟩ ![] hs (constant (F := Ideal) (⟨0, ![]⟩ : Shape) .f32 0x00000000#32))) w2)
      (broadcastInDim ⟨2, ![n, a]⟩ ![0, 1] hm2 (broadcastInDim ⟨2, ![1, a]⟩ ![1] hv2 b2))
    = pairArr x y (top hcd w) (bot hcd w) (vec b1) w2 (vec b2) := by
  have P2 := plain_of_lists dd2 q1 q2 q3 q4 q5 q6
  have Pc := plain_of_lists ddc p1 p2 p3 p4 p5 p6
  refine eq_pairArr _ _ _ _ _ _ _ _ fun r q => ?_
  unfold Host.dotGeneral
  rw [addf_apply, bias_rows, MatProd.dotGeneral_entry P2]
  refine congrArg (· + b2 (ix1 q)) (Finset.sum_congr rfl fun l _ => congrArg (· * w2 (ix2 l q)) ?_)
  rw [maximumf_apply, addf_apply, bias_rows, scalar_rows, constant_apply, MatProd.dotGeneral_entry Pc,
    MatProd.entry_join hcd _ w x y r l
      (fun l' => ConcatCols.left x y hcat _ r l' rfl rfl) (fun l' => ConcatCols.right x y hcat _ r l' rfl rfl),
    Ideal.ofBits_zero_f32]
  rfl

end PairMlp

end
-- ==== Proof.EdgeValue.lean ====
/-
  The first region (the edge network): what its output array holds after the run, as one function of the arrays the
  region finds on entry.

  The grid has 200 points; point t reads rows 4000·t … 4000·t + 3999 of the two gathered arrays, the whole of the two
  first-layer matrices, the two bias vectors and the second-layer matrix, and writes rows 4000·t … 4000·t + 3999 of
  the output.  The body is the two-input perceptron on its 4000 rows, and each output row depends on the same row of
  the two inputs only, so block t of the output is block t of the perceptron applied to ALL 800000 rows.  The 200
  blocks tile the output, so the whole output array is that array.
-/
import proofs.«115657_j58171037057096_1_alg».proof.Proof.Gen.KernelIdeal.Frame
import proofs.«115657_j58171037057096_1_alg».proof.Proof.LibPairChains
import Idealize.ShloMosaic.Lib.Pipeline.Value

noncomputable section

namespace Cert.KernelIdeal.EdgeValue

open Cert.KernelIdeal Cert.KernelIdeal.Gen Idealize.ShloMosaic Idealize.ShloMosaic.TcCoe Idealize.SL.Sem
open Idealize.ShloMosaic.ValueIdx PairMlp
open Idealize.ShloMosaic.Pipeline (Dat Cfg Window)

/-- The body's stored value is the perceptron on the body's 4000 rows. -/
theorem pay_eq (v0 v3 : Vec Ideal S4000x128 .f32) (v6 v9 : Vec Ideal S128x128 .f32) (v15 : Vec Ideal S128 .f32)
    (v22 : Vec Ideal S128x128 .f32) (v25 : Vec Ideal S128 .f32) :
    k0_pay1 (F := Ideal) v0 v3 v6 v9 v15 v22 v25 = pairArr v0 v3 v6 v9 (vec v15) v22 (vec v25) := by
  unfold k0_pay1
  simp only [shapeCast_self]
  exact split_chain dot_S4000x128_S128x128_S4000x128_1_0_0_1_n_n dot_S4000x128_S128x128_S4000x128_1_0_0_1_n_n
    rfl rfl rfl rfl rfl rfl rfl rfl rfl rfl rfl rfl shapeCasts_S128_S1x128 broadcasts_S1x128_S4000x128
    shapeCasts_S128_S1x128 broadcasts_S1x128_S4000x128 bitsLt_bf16_f32 v0 v3 v6 v9 v15 v22 v25
    (Scalar.ofBits .f32 0x00000000#32) Mlp.zero_f32

/-! ## The windows' blocks -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two gathered inputs and the output move down one block of rows per point; the
    matrices and the bias vectors stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- A window whose block is its whole array reads the array itself at every point. -/
theorem whole_2 (c : Dev nD) (t : Fin cfg0.N) : iblk0 V c 2 t = V c main_v18 := by
  obtain ⟨-, -, -, -, e0, e1, -⟩ := idx_facts t
  funext y
  show V c main_v18 (((cfg0.win 2).blk t).view.emb y) = V c main_v18 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem whole_3 (c : Dev nD) (t : Fin cfg0.N) : iblk0 V c 3 t = V c main_v19 := by
  obtain ⟨-, -, -, -, -, -, e0, e1, -⟩ := idx_facts t
  funext y
  show V c main_v19 (((cfg0.win 3).blk t).view.emb y) = V c main_v19 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole_4 (c : Dev nD) (t : Fin cfg0.N) : iblk0 V c 4 t = V c main_arg3 := by
  obtain ⟨-, -, -, -, -, -, -, -, e0, -⟩ := idx_facts t
  funext y
  show V c main_arg3 (((cfg0.win 4).blk t).view.emb y) = V c main_arg3 y
  refine congrArg _ (funext fun a => Fin.ext ?_)
  match a with
  | ⟨0, _⟩ => show win0_4.index t (0 : Fin 1) * 128 + 1 * (y 0).val = (y 0).val; omega

theorem whole_5 (c : Dev nD) (t : Fin cfg0.N) : iblk0 V c 5 t = V c main_arg4 := by
  obtain ⟨-, -, -, -, -, -, -, -, -, e0, e1, -⟩ := idx_facts t
  funext y
  show V c main_arg4 (((cfg0.win 5).blk t).view.emb y) = V c main_arg4 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem whole_6 (c : Dev nD) (t : Fin cfg0.N) : iblk0 V c 6 t = V c main_arg5 := by
  obtain ⟨-, -, -, -, -, -, -, -, -, -, -, e0, -⟩ := idx_facts t
  funext y
  show V c main_arg5 (((cfg0.win 6).blk t).view.emb y) = V c main_arg5 y
  refine congrArg _ (funext fun a => Fin.ext ?_)
  match a with
  | ⟨0, _⟩ => show win0_6.index t (0 : Fin 1) * 128 + 1 * (y 0).val = (y 0).val; omega

/-! ## The output array -/

/-- The perceptron on all 800000 pairs of gathered rows, with the parameters as the region finds them. -/
def edgeOf (c : Dev nD) : S800000x128.Idx → EReal :=
  pairArr (V c main_v10) (V c main_v17) (V c main_v18) (V c main_v19) (vec (V c main_arg3)) (V c main_arg4)
    (vec (V c main_arg5))

/-- What point t writes back is block t of that array. -/
theorem flushed_eq (c : Dev nD) (t : Fin cfg0.N) :
    (dat0 V c).flushed 7 t = ((cfg0.win 7).blk t).view.read (Elt Ideal) (edgeOf V c) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S128x128) hz2,
    View.ld_unit_zero (S := S128) hz1]
  rw [pay_eq, whole_2, whole_3, whole_4, whole_5, whole_6]
  obtain ⟨a0, a1, b0, b1, -, -, -, -, -, -, -, -, o0, o1⟩ := idx_facts t
  funext j
  show pairArr (iblk0 V c 0 t) (iblk0 V c 1 t) (V c main_v18) (V c main_v19) (vec (V c main_arg3)) (V c main_arg4)
      (vec (V c main_arg5)) j = edgeOf V c (((cfg0.win 7).blk t).view.emb j)
  unfold edgeOf
  have hj0 : (j 0).val < 4000 := (j 0).isLt
  have r0 : ((((cfg0.win 7).blk t).view.emb j) 0).val = t.val * 4000 + (j 0).val := by
    show win0_7.index t (0 : Fin 2) * 4000 + 1 * (j 0).val = _; omega
  have r1 : ((((cfg0.win 7).blk t).view.emb j) 1).val = (j 1).val := by
    show win0_7.index t (1 : Fin 2) * 128 + 1 * (j 1).val = _; omega
  refine pairArr_band _ _ _ _ _ _ _ _ _ j _ (fun l => ?_) (fun l => ?_) r1.symm
  · show V c main_v10 (((cfg0.win 0).blk t).view.emb (ix2 ⟨(j 0).val, idx2_lt0 j⟩ l)) = _
    refine congrArg _ (funext fun a => Fin.ext ?_)
    match a with
    | ⟨0, _⟩ => show win0_0.index t (0 : Fin 2) * 4000 + 1 * (j 0).val = ((((cfg0.win 7).blk t).view.emb j) 0).val; omega
    | ⟨1, _⟩ => show win0_0.index t (1 : Fin 2) * 128 + 1 * l.val = l.val; omega
  · show V c main_v17 (((cfg0.win 1).blk t).view.emb (ix2 ⟨(j 0).val, idx2_lt0 j⟩ l)) = _
    refine congrArg _ (funext fun a => Fin.ext ?_)
    match a with
    | ⟨0, _⟩ => show win0_1.index t (0 : Fin 2) * 4000 + 1 * (j 0).val = ((((cfg0.win 7).blk t).view.emb j) 0).val; omega
    | ⟨1, _⟩ => show win0_1.index t (1 : Fin 2) * 128 + 1 * l.val = l.val; omega

/-- An index of the output array is in point t's block iff each coordinate is in the block's range on its axis. -/
theorem mem_blk (t : Fin cfg0.N) (i : S800000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v20).slice (win0_7.rect t)).set ↔ _
  rw [View.set_slice_whole, Rect.mem_set_unit]
  exact Iff.rfl

/-- Row r of the output lies in the block of point r / 4000: the 200 blocks tile the array. -/
theorem cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : grid0.N = 200 := N_0
  obtain ⟨t, ht⟩ : ∃ t : Fin cfg0.N, t.val = (i 0).val / 4000 := ⟨⟨(i 0).val / 4000, by show _ < grid0.N; omega⟩, rfl⟩
  obtain ⟨-, -, -, -, -, -, -, -, -, -, -, -, o0, o1⟩ := idx_facts t
  refine ⟨t, flush0_7 t, ?_⟩
  rw [mem_blk]
  intro a
  match a with
  | ⟨0, _⟩ =>
    show win0_7.index t (0 : Fin 2) * 4000 ≤ (i 0).val ∧ (i 0).val < win0_7.index t (0 : Fin 2) * 4000 + 4000
    omega
  | ⟨1, _⟩ =>
    show win0_7.index t (1 : Fin 2) * 128 ≤ (i 1).val ∧ (i 1).val < win0_7.index t (1 : Fin 2) * 128 + 128
    omega

/-- The output array after the region's 200 write-backs. -/
theorem final (c : Dev nD) : (dat0 V c).arrAt 7 cfg0.N = edgeOf V c :=
  (dat0 V c).arrAt_eq_of_cover 7 (edgeOf V c) (fun t _ => flushed_eq V c t) cover

end Cert.KernelIdeal.EdgeValue

end
-- ==== Proof.NodeValue.lean ====
/-
  The second region (the node network): what its output array holds after the run, as one function of the arrays the
  region finds on entry.

  The grid has 10 points; point t reads rows 5000·t … 5000·t + 4999 of the node features and of the aggregated edge
  messages, the whole of the two first-layer matrices, the two bias vectors and the second-layer matrix, and writes
  rows 5000·t … 5000·t + 4999 of the output.  The body adds the node features to the two-input perceptron of the pair
  (node features, aggregated messages) on its 5000 rows; each output row depends on the same row of the two inputs
  only, so block t of the output is block t of that sum taken over ALL 50000 rows, and the 10 blocks tile the output.
-/
import proofs.«115657_j58171037057096_1_alg».proof.Proof.Gen.KernelIdeal.Frame
import proofs.«115657_j58171037057096_1_alg».proof.Proof.LibPairChains
import Idealize.ShloMosaic.Lib.Pipeline.Value

noncomputable section

namespace Cert.KernelIdeal.NodeValue

open Cert.KernelIdeal Cert.KernelIdeal.Gen Idealize.ShloMosaic Idealize.ShloMosaic.TcCoe Idealize.SL.Sem
open Idealize.ShloMosaic.ValueIdx PairMlp
open Idealize.ShloMosaic.Pipeline (Dat Cfg Window)

/-- The body's stored value: the node rows plus the perceptron on the body's 5000 pairs of rows. -/
theorem pay_eq (v0 v1 : Vec Ideal S5000x128 .f32) (v5 v8 : Vec Ideal S128x128 .f32) (v14 : Vec Ideal S128 .f32)
    (v21 : Vec Ideal S128x128 .f32) (v24 : Vec Ideal S128 .f32) :
    k1_pay1 (F := Ideal) v0 v1 v5 v8 v14 v21 v24 = addf v0 (pairArr v0 v1 v5 v8 (vec v14) v21 (vec v24)) := by
  unfold k1_pay1
  simp only [shapeCast_self]
  exact congrArg (addf v0) (split_chain dot_S5000x128_S128x128_S5000x128_1_0_0_1_n_n
    dot_S5000x128_S128x128_S5000x128_1_0_0_1_n_n
    rfl rfl rfl rfl rfl rfl rfl rfl rfl rfl rfl rfl shapeCasts_S128_S1x128 broadcasts_S1x128_S5000x128
    shapeCasts_S128_S1x128 broadcasts_S1x128_S5000x128 bitsLt_bf16_f32 v0 v1 v5 v8 v14 v21 v24
    (Scalar.ofBits .f32 0x00000000#32) Mlp.zero_f32)

/-! ## The windows' blocks -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the node features, the aggregated messages and the output move down one block of
    rows per point; the matrices and the bias vectors stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- A window whose block is its whole array reads the array itself at every point. -/
theorem whole_2 (c : Dev nD) (t : Fin cfg1.N) : iblk1 V c 2 t = V c main_v24 := by
  obtain ⟨-, -, -, -, e0, e1, -⟩ := idx_facts t
  funext y
  show V c main_v24 (((cfg1.win 2).blk t).view.emb y) = V c main_v24 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem whole_3 (c : Dev nD) (t : Fin cfg1.N) : iblk1 V c 3 t = V c main_v25 := by
  obtain ⟨-, -, -, -, -, -, e0, e1, -⟩ := idx_facts t
  funext y
  show V c main_v25 (((cfg1.win 3).blk t).view.emb y) = V c main_v25 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole_4 (c : Dev nD) (t : Fin cfg1.N) : iblk1 V c 4 t = V c main_arg7 := by
  obtain ⟨-, -, -, -, -, -, -, -, e0, -⟩ := idx_facts t
  funext y
  show V c main_arg7 (((cfg1.win 4).blk t).view.emb y) = V c main_arg7 y
  refine congrArg _ (funext fun a => Fin.ext ?_)
  match a with
  | ⟨0, _⟩ => show win1_4.index t (0 : Fin 1) * 128 + 1 * (y 0).val = (y 0).val; omega

theorem whole_5 (c : Dev nD) (t : Fin cfg1.N) : iblk1 V c 5 t = V c main_arg8 := by
  obtain ⟨-, -, -, -, -, -, -, -, -, e0, e1, -⟩ := idx_facts t
  funext y
  show V c main_arg8 (((cfg1.win 5).blk t).view.emb y) = V c main_arg8 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem whole_6 (c : Dev nD) (t : Fin cfg1.N) : iblk1 V c 6 t = V c main_arg9 := by
  obtain ⟨-, -, -, -, -, -, -, -, -, -, -, e0, -⟩ := idx_facts t
  funext y
  show V c main_arg9 (((cfg1.win 6).blk t).view.emb y) = V c main_arg9 y
  refine congrArg _ (funext fun a => Fin.ext ?_)
  match a with
  | ⟨0, _⟩ => show win1_6.index t (0 : Fin 1) * 128 + 1 * (y 0).val = (y 0).val; omega

/-! ## The output array -/

/-- The node features plus the perceptron on all 50000 pairs (node row, aggregated row), with the parameters as the
    region finds them. -/
def nodeOf (c : Dev nD) : S50000x128.Idx → EReal :=
  addf (F := Ideal) (s := S50000x128) (φ := .f32) (V c main_arg0)
    (pairArr (V c main_arg0) (V c main_v23) (V c main_v24) (V c main_v25) (vec (V c main_arg7)) (V c main_arg8)
      (vec (V c main_arg9)))

/-- What point t writes back is block t of that array. -/
theorem flushed_eq (c : Dev nD) (t : Fin cfg1.N) :
    (dat1 V c).flushed 7 t = ((cfg1.win 7).blk t).view.read (Elt Ideal) (nodeOf V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2,
    View.ld_unit_zero (S := S128) hz1]
  rw [pay_eq, whole_2, whole_3, whole_4, whole_5, whole_6]
  obtain ⟨a0, a1, b0, b1, -, -, -, -, -, -, -, -, o0, o1⟩ := idx_facts t
  funext j
  show addf (F := Ideal) (s := S5000x128) (φ := .f32) (iblk1 V c 0 t)
      (pairArr (iblk1 V c 0 t) (iblk1 V c 1 t) (V c main_v24) (V c main_v25) (vec (V c main_arg7))
      (V c main_arg8) (vec (V c main_arg9))) j = nodeOf V c (((cfg1.win 7).blk t).view.emb j)
  unfold nodeOf
  rw [addf_apply, addf_apply]
  have hj0 : (j 0).val < 5000 := (j 0).isLt
  have r0 : ((((cfg1.win 7).blk t).view.emb j) 0).val = t.val * 5000 + (j 0).val := by
    show win1_7.index t (0 : Fin 2) * 5000 + 1 * (j 0).val = _; omega
  have r1 : ((((cfg1.win 7).blk t).view.emb j) 1).val = (j 1).val := by
    show win1_7.index t (1 : Fin 2) * 128 + 1 * (j 1).val = _; omega
  refine congrArg₂ (· + ·) ?_ (pairArr_band _ _ _ _ _ _ _ _ _ j _ (fun l => ?_) (fun l => ?_) r1.symm)
  · show V c main_arg0 (((cfg1.win 0).blk t).view.emb j) = _
    refine congrArg _ (funext fun a => Fin.ext ?_)
    match a with
    | ⟨0, _⟩ => show win1_0.index t (0 : Fin 2) * 5000 + 1 * (j 0).val = ((((cfg1.win 7).blk t).view.emb j) 0).val; omega
    | ⟨1, _⟩ => show win1_0.index t (1 : Fin 2) * 128 + 1 * (j 1).val = ((((cfg1.win 7).blk t).view.emb j) 1).val; omega
  · show V c main_arg0 (((cfg1.win 0).blk t).view.emb (ix2 ⟨(j 0).val, idx2_lt0 j⟩ l)) = _
    refine congrArg _ (funext fun a => Fin.ext ?_)
    match a with
    | ⟨0, _⟩ => show win1_0.index t (0 : Fin 2) * 5000 + 1 * (j 0).val = ((((cfg1.win 7).blk t).view.emb j) 0).val; omega
    | ⟨1, _⟩ => show win1_0.index t (1 : Fin 2) * 128 + 1 * l.val = l.val; omega
  · show V c main_v23 (((cfg1.win 1).blk t).view.emb (ix2 ⟨(j 0).val, idx2_lt0 j⟩ l)) = _
    refine congrArg _ (funext fun a => Fin.ext ?_)
    match a with
    | ⟨0, _⟩ => show win1_1.index t (0 : Fin 2) * 5000 + 1 * (j 0).val = ((((cfg1.win 7).blk t).view.emb j) 0).val; omega
    | ⟨1, _⟩ => show win1_1.index t (1 : Fin 2) * 128 + 1 * l.val = l.val; omega

/-- An index of the output array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v26).slice (win1_7.rect t)).set ↔ _
  rw [View.set_slice_whole, Rect.mem_set_unit]
  exact Iff.rfl

/-- Row r of the output lies in the block of point r / 5000: the 10 blocks tile the array. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, -, -, -, -, -, -, -, o0, o1⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- The output array after the region's 10 write-backs. -/
theorem final (c : Dev nD) : (dat1 V c).arrAt 7 cfg1.N = nodeOf V c :=
  (dat1 V c).arrAt_eq_of_cover 7 (nodeOf V c) (fun t _ => flushed_eq V c t) cover

end Cert.KernelIdeal.NodeValue

end
-- ==== Proof.RefValue.lean ====
/-
  The reference program, read as the same two networks.

  Its edge stage joins the two gathered arrays side by side, multiplies by the 256 × 128 first-layer matrix, adds the
  bias, takes the maximum with zero, multiplies by the second-layer matrix and adds the second bias: the two-input
  perceptron whose two first-layer matrices are the upper and the lower 128 rows of the 256 × 128 matrix.  Its node
  stage does the same with the node features and the aggregated messages, and adds the node features to the result.
-/
import proofs.«115657_j58171037057096_1_alg».proof.Proof.Gen.ReferenceIdeal.Read
import proofs.«115657_j58171037057096_1_alg».proof.Proof.LibPairChains

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx PairMlp

theorem split256 : 256 = 128 + 128 := rfl

/-- The edge stage is the perceptron on the two gathered arrays. -/
theorem edge_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v27 (F := Ideal) x0 x1 x2 x3 x4 x5
      = pairArr (val_main_v10 (F := Ideal) x0 x1) (val_main_v17 (F := Ideal) x0 x1) (top split256 x2) (bot split256 x2)
          (vec x3) x4 (vec x5) := by
  unfold val_main_v27 val_main_v24 val_main_v23 val_main_v22 val_main_v19 val_main_v18 val_main_v21 val_main_v20
    val_main_call0_v0 val_main_call0_cst val_main_v26 val_main_v25
  exact joined_chain split256 dot_S800000x256_S256x128_S800000x128_1_0_0_1_n_n
    dot_S800000x128_S128x128_S800000x128_1_0_0_1_n_n rfl rfl rfl rfl rfl rfl rfl rfl rfl rfl rfl rfl
    concatenates_S800000x128_S800000x128_S800000x256_d1 bcast_S128_S1x128_1 bcast_S1x128_S800000x128_0_1
    bcast_S_S800000x128 bcast_S128_S1x128_1 bcast_S1x128_S800000x128_0_1 _ _ x2 x3 x4 x5

/-- The node stage, over whatever the aggregation produced, is the node features plus the perceptron on the pair
    (node features, aggregated messages). -/
theorem node_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v41 (F := Ideal) x0 x1 x2 x3 x4 x5 x6 x7 x8 x9
      = addf (F := Ideal) (s := S50000x128) (φ := .f32) x0
          (pairArr x0 (val_main_v30 (F := Ideal) x0 x1 x2 x3 x4 x5) (top split256 x6) (bot split256 x6) (vec x7) x8 (vec x9)) := by
  unfold val_main_v41 val_main_v40 val_main_v37 val_main_v36 val_main_v35 val_main_v32 val_main_v31 val_main_v34
    val_main_v33 val_main_call1_v0 val_main_call1_cst val_main_v39 val_main_v38
  exact congrArg (addf x0) (joined_chain split256 dot_S50000x256_S256x128_S50000x128_1_0_0_1_n_n
    dot_S50000x128_S128x128_S50000x128_1_0_0_1_n_n rfl rfl rfl rfl rfl rfl rfl rfl rfl rfl rfl rfl
    concatenates_S50000x128_S50000x128_S50000x256_d1 bcast_S128_S1x128_1 bcast_S1x128_S50000x128_0_1
    bcast_S_S50000x128 bcast_S128_S1x128_1 bcast_S1x128_S50000x128_0_1 _ _ x6 x7 x8 x9)

end Cert.ReferenceIdeal.RefValue

end
-- ==== Proof.KernelValue.lean ====
/-
  The result buffer of the idealized kernel program, read back through the boundaries of @main to the arguments.

  Walking back from the last boundary: the result is the second region's output array, which is the node network of
  (the node features, the aggregated messages, the node parameters) as the second region finds them; the node
  features and parameters are arguments no operation writes, the two first-layer matrices are the upper and lower
  halves of one argument, and the aggregated messages are the host's scatter-add of the first region's output, which
  is the edge network of the two gathered arrays and the edge parameters as the first region finds them.  Each piece
  is spelt by the same host operations in the reference program, so the whole is the reference's result term.
-/
import proofs.«115657_j58171037057096_1_alg».proof.Proof.EdgeValue
import proofs.«115657_j58171037057096_1_alg».proof.Proof.NodeValue
import proofs.«115657_j58171037057096_1_alg».proof.Proof.RefValue

set_option maxRecDepth 16384

noncomputable section

namespace Cert.KernelIdeal.FoldValue

open Cert.KernelIdeal Cert.KernelIdeal.Gen Idealize.ShloMosaic Idealize.ShloMosaic.TcCoe Idealize.SL.Sem
open Idealize.ShloMosaic.StableHlo Idealize.ShloMosaic.ValueIdx PairMlp
open Cert.ReferenceIdeal.Read (val_main_v3 val_main_v10 val_main_v17 val_main_v27 val_main_v30 val_main_v41)
open Cert.ReferenceIdeal.RefValue (split256)

variable (m : (ℓ : Loc nD τ sig) → Buf (Elt Ideal) ℓ) (ρ : Dev nD → PrngReg) (c : Dev nD)

/-! ## Before the first region -/

theorem w1_v10 : V1 m ρ c main_v10
    = val_main_v10 (F := Ideal) (m ((c : Thread nD τ).loc main_arg0)) (m ((c : Thread nD τ).loc main_arg1)) := by
  show StableHlo.after hostOps0 (W0 m ρ c) (Proc.devRef .tc main_v10) = _
  after_results
  rfl

theorem w1_v17 : V1 m ρ c main_v17
    = val_main_v17 (F := Ideal) (m ((c : Thread nD τ).loc main_arg0)) (m ((c : Thread nD τ).loc main_arg1)) := by
  show StableHlo.after hostOps0 (W0 m ρ c) (Proc.devRef .tc main_v17) = _
  after_results
  rfl

/-- The first region's two first-layer matrices are the upper and the lower half of the 256 × 128 argument. -/
theorem w1_v18 : V1 m ρ c main_v18 = top split256 (m ((c : Thread nD τ).loc main_arg2)) := by
  show StableHlo.after hostOps0 (W0 m ρ c) (Proc.devRef .tc main_v18) = _
  after_results
  exact slice_top split256 _ _

theorem w1_v19 : V1 m ρ c main_v19 = bot split256 (m ((c : Thread nD τ).loc main_arg2)) := by
  show StableHlo.after hostOps0 (W0 m ρ c) (Proc.devRef .tc main_v19) = _
  after_results
  exact slice_bot split256 _ _

theorem w1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

theorem w1_arg0 : W1 m ρ c (Proc.devRef .tc main_arg0) = (m ((c : Thread nD τ).loc main_arg0)) := by
  show StableHlo.after hostOps0 (W0 m ρ c) (Proc.devRef .tc main_arg0) = _
  after_results

theorem w1_arg3 : W1 m ρ c (Proc.devRef .tc main_arg3) = (m ((c : Thread nD τ).loc main_arg3)) := by
  show StableHlo.after hostOps0 (W0 m ρ c) (Proc.devRef .tc main_arg3) = _
  after_results

theorem w1_arg4 : W1 m ρ c (Proc.devRef .tc main_arg4) = (m ((c : Thread nD τ).loc main_arg4)) := by
  show StableHlo.after hostOps0 (W0 m ρ c) (Proc.devRef .tc main_arg4) = _
  after_results

theorem w1_arg5 : W1 m ρ c (Proc.devRef .tc main_arg5) = (m ((c : Thread nD τ).loc main_arg5)) := by
  show StableHlo.after hostOps0 (W0 m ρ c) (Proc.devRef .tc main_arg5) = _
  after_results

theorem w1_arg6 : W1 m ρ c (Proc.devRef .tc main_arg6) = (m ((c : Thread nD τ).loc main_arg6)) := by
  show StableHlo.after hostOps0 (W0 m ρ c) (Proc.devRef .tc main_arg6) = _
  after_results

theorem w1_arg7 : W1 m ρ c (Proc.devRef .tc main_arg7) = (m ((c : Thread nD τ).loc main_arg7)) := by
  show StableHlo.after hostOps0 (W0 m ρ c) (Proc.devRef .tc main_arg7) = _
  after_results

theorem w1_arg8 : W1 m ρ c (Proc.devRef .tc main_arg8) = (m ((c : Thread nD τ).loc main_arg8)) := by
  show StableHlo.after hostOps0 (W0 m ρ c) (Proc.devRef .tc main_arg8) = _
  after_results

theorem w1_arg9 : W1 m ρ c (Proc.devRef .tc main_arg9) = (m ((c : Thread nD τ).loc main_arg9)) := by
  show StableHlo.after hostOps0 (W0 m ρ c) (Proc.devRef .tc main_arg9) = _
  after_results

/-! ## The first region's output -/

/-- The first region leaves the reference's edge stage in its output array. -/
theorem w2_v20 : W2 m ρ c (Proc.devRef .tc main_v20)
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W2 m ρ c (Proc.devRef .tc main_v20) = (dat0 (V1 m ρ) c).arrAt 7 cfg0.N from W2_arr m ρ c 7,
    EdgeValue.final, Cert.ReferenceIdeal.RefValue.edge_eq]
  unfold EdgeValue.edgeOf
  rw [w1_v10, w1_v17, w1_v18, w1_v19, show V1 m ρ c main_arg3 = _ from w1_arg3 m ρ c,
    show V1 m ρ c main_arg4 = _ from w1_arg4 m ρ c, show V1 m ρ c main_arg5 = _ from w1_arg5 m ρ c]

/-! ## Between the regions -/

/-- The aggregated messages the second region finds are the reference's scatter-add stage. -/
theorem w3_v23 : V3 m ρ c main_v23
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v23) = _
  after_results
  rw [w2_v20, W2_of_ne m ρ c main_v3 (by decide), w1_v3]
  rfl

theorem w3_v24 : V3 m ρ c main_v24 = top split256 (m ((c : Thread nD τ).loc main_arg6)) := by
  show StableHlo.after hostOps1 (W2 m ρ c) (Proc.devRef .tc main_v24) = _
  after_results
  rw [W2_of_ne m ρ c main_arg6 (by decide), w1_arg6]
  exact slice_top split256 _ _

theorem w3_v25 : V3 m ρ c main_v25 = bot split256 (m ((c : Thread nD τ).loc main_arg6)) := by
  show StableHlo.after hostOps1 (W2 m ρ c) (Proc.devRef .tc main_v25) = _
  after_results
  rw [W2_of_ne m ρ c main_arg6 (by decide), w1_arg6]
  exact slice_bot split256 _ _

theorem w3_arg0 : V3 m ρ c main_arg0 = (m ((c : Thread nD τ).loc main_arg0)) := by
  show StableHlo.after hostOps1 (W2 m ρ c) (Proc.devRef .tc main_arg0) = _
  after_results
  rw [W2_of_ne m ρ c main_arg0 (by decide), w1_arg0]

theorem w3_arg7 : V3 m ρ c main_arg7 = (m ((c : Thread nD τ).loc main_arg7)) := by
  show StableHlo.after hostOps1 (W2 m ρ c) (Proc.devRef .tc main_arg7) = _
  after_results
  rw [W2_of_ne m ρ c main_arg7 (by decide), w1_arg7]

theorem w3_arg8 : V3 m ρ c main_arg8 = (m ((c : Thread nD τ).loc main_arg8)) := by
  show StableHlo.after hostOps1 (W2 m ρ c) (Proc.devRef .tc main_arg8) = _
  after_results
  rw [W2_of_ne m ρ c main_arg8 (by decide), w1_arg8]

theorem w3_arg9 : V3 m ρ c main_arg9 = (m ((c : Thread nD τ).loc main_arg9)) := by
  show StableHlo.after hostOps1 (W2 m ρ c) (Proc.devRef .tc main_arg9) = _
  after_results
  rw [W2_of_ne m ρ c main_arg9 (by decide), w1_arg9]

/-! ## The result -/

/-- The result buffer after the run holds the reference's result term of the arguments. -/
theorem out_eq : W4 m ρ c (Proc.devRef .tc main_v26)
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W4 m ρ c (Proc.devRef .tc main_v26) = (dat1 (V3 m ρ) c).arrAt 7 cfg1.N from W4_arr m ρ c 7,
    NodeValue.final, Cert.ReferenceIdeal.RefValue.node_eq]
  unfold NodeValue.nodeOf
  rw [w3_arg0, w3_v23, w3_v24, w3_v25, w3_arg7, w3_arg8, w3_arg9]

end Cert.KernelIdeal.FoldValue

end
-- ==== Proof.lean ====
/-
  The kernel program against its reference: a message-passing layer on a graph of 50000 nodes and 800000 edges.

  Both programs gather the features of each edge's two end nodes, run a two-layer perceptron on the pair (the edge
  network), add each edge's message into its destination node (a scatter-add into zeros), run a second two-layer
  perceptron on the pair (node features, aggregated messages) and add the node features to its output.  The gathers
  and the scatter-add are the same host operations in both programs.  The networks differ in arrangement only: the
  reference joins the two inputs side by side and multiplies by one matrix with 256 rows, the kernel multiplies each
  input by its own half of that matrix (the upper 128 rows, the lower 128 rows) and adds the two products; and the
  kernel works on bands of 4000 (edges) or 5000 (nodes) rows at a time.  A sum over 256 positions is the sum over the
  first 128 plus the sum over the last 128, and each row of a perceptron's output depends on the same row of its
  inputs only, so at exact arithmetic on the extended reals the two programs compute the same array.  Only
  commutativity and associativity of the sum are used, so the inputs' finiteness is never needed.

  The kernel's three narrowings to a shorter float format are the identity at exact arithmetic and the idealized
  program keeps them as printed, so there is nothing to preserve beyond the program's own text.
-/
import proofs.«115657_j58171037057096_1_alg».proof.Defs
import proofs.«115657_j58171037057096_1_alg».proof.Proof.Gen.Kernel
import proofs.«115657_j58171037057096_1_alg».proof.Proof.Gen.Kernel.Skeleton
import proofs.«115657_j58171037057096_1_alg».proof.Proof.Gen.Kernel.Launch
import proofs.«115657_j58171037057096_1_alg».proof.Proof.Gen.Kernel.Points
import proofs.«115657_j58171037057096_1_alg».proof.Proof.Gen.Kernel.Frame
import proofs.«115657_j58171037057096_1_alg».proof.Proof.Gen.KernelIdeal
import proofs.«115657_j58171037057096_1_alg».proof.Proof.Gen.KernelIdeal.Skeleton
import proofs.«115657_j58171037057096_1_alg».proof.Proof.Gen.KernelIdeal.Launch
import proofs.«115657_j58171037057096_1_alg».proof.Proof.Gen.KernelIdeal.Points
import proofs.«115657_j58171037057096_1_alg».proof.Proof.Gen.KernelIdeal.Frame
import proofs.«115657_j58171037057096_1_alg».proof.Proof.Gen.ReferenceIdeal
import proofs.«115657_j58171037057096_1_alg».proof.Proof.Gen.Pre_finite_inputs
import proofs.«115657_j58171037057096_1_alg».proof.Proof.Gen.ReferenceIdeal.Run
import proofs.«115657_j58171037057096_1_alg».proof.Proof.Gen.ReferenceIdeal.Read
import proofs.«115657_j58171037057096_1_alg».proof.Proof.KernelRun
import proofs.«115657_j58171037057096_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result array: the kernel
    program's result buffer holds the reference's result term of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v26),
    Cert.KernelIdeal.RunOut.run_out m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v41_eq, h0, h1, h2, h3, h4, h5, h6, h7, h8, h9]
  exact (Cert.KernelIdeal.FoldValue.out_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
